-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S16 .f32) (main_arg6 : FVec F S16x1 .f32) (main_arg7 : FVec F S1 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x1 .f32 := Host.absf main_arg6
  let main_cst_8 : FVec F S_ .f32 := constant S_ .f32 0x7F800000#32
  let main_v25 : FVec F S16x1 .f32 := broadcastInDim S16x1 ![] bcast_S_S16x1 main_cst_8
  let main_v26 : IVec S16x1 1 := cmpf .olt main_v24 main_v25
  let main_c_9 : IVec S_ 1 := constantI S_ 1 1#1
  let main_v27 : IVec S_ 1 := (fun x v => Host.reduce IntOp.andi x v reducesTo_S16x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x512 .f32) (main_arg1 : IVec S2x3200000 32) (main_arg2 : FVec F S512x16 .f32) (main_arg3 : FVec F S16 .f32) (main_arg4 : FVec F S16x16 .f32) (main_arg5 : FVec F S16 .f32) (main_arg6 : FVec F S16x1 .f32) (main_arg7 : FVec F S1 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S4000x512 : Shape := ⟨2, ![4000, 512]⟩
abbrev S4000x16 : Shape := ⟨2, ![4000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S1x1 : Shape := ⟨2, ![1, 1]⟩

abbrev nBuf : Space → Nat
  | .hbm => 136
  | .vmem => 10
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x16, .f32⟩
  | 5 => ⟨S16, .f32⟩
  | 6 => ⟨S16x1, .f32⟩
  | 7 => ⟨S1, .f32⟩
  | 8 => ⟨S100000, .i32⟩
  | 9 => ⟨S1x3200000, .i32⟩
  | 10 => ⟨S3200000, .i32⟩
  | 11 => ⟨S3300000, .i32⟩
  | 12 => ⟨S1x3200000, .i32⟩
  | 13 => ⟨S3200000, .i32⟩
  | 14 => ⟨S3300000, .i32⟩
  | 15 => ⟨S100000x16, .f32⟩
  | 16 => ⟨S_, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x16, .f32⟩
  | 58 => ⟨S3300000x1, .f32⟩
  | 59 => ⟨S3300000x16, .f32⟩
  | 60 => ⟨S3300000x16, .f32⟩
  | 61 => ⟨S_, .f32⟩
  | 62 => ⟨S100000x16, .f32⟩
  | 63 => ⟨S3300000x1, .i32⟩
  | 64 => ⟨S100000x16, .f32⟩
  | 65 => ⟨S1x16, .f32⟩
  | 66 => ⟨S100000x16, .f32⟩
  | 67 => ⟨S100000x16, .f32⟩
  | 68 => ⟨S_, .f32⟩
  | 69 => ⟨S100000x16, .f32⟩
  | 70 => ⟨S100000x16, .f32⟩
  | 71 => ⟨S100000x16, .f32⟩
  | 72 => ⟨S_, .f32⟩
  | 73 => ⟨S3300000, .f32⟩
  | 74 => ⟨S_, .f32⟩
  | 75 => ⟨S100000, .f32⟩
  | 76 => ⟨S3300000x1, .i32⟩
  | 77 => ⟨S100000, .f32⟩
  | 78 => ⟨S_, .f32⟩
  | 79 => ⟨S100000, .f32⟩
  | 80 => ⟨S100000, .i1⟩
  | 81 => ⟨S100000, .f32⟩
  | 82 => ⟨S_, .f32⟩
  | 83 => ⟨S_, .f32⟩
  | 84 => ⟨S100000, .f32⟩
  | 85 => ⟨S100000, .f32⟩
  | 86 => ⟨S_, .i32⟩
  | 87 => ⟨S3300000, .i32⟩
  | 88 => ⟨S3300000, .i1⟩
  | 89 => ⟨S_, .i32⟩
  | 90 => ⟨S3300000, .i32⟩
  | 91 => ⟨S3300000, .i32⟩
  | 92 => ⟨S3300000, .i32⟩
  | 93 => ⟨S3300000x1, .i32⟩
  | 94 => ⟨S3300000, .f32⟩
  | 95 => ⟨S_, .i32⟩
  | 96 => ⟨S3300000, .i32⟩
  | 97 => ⟨S3300000, .i1⟩
  | 98 => ⟨S_, .i32⟩
  | 99 => ⟨S3300000, .i32⟩
  | 100 => ⟨S3300000, .i32⟩
  | 101 => ⟨S3300000, .i32⟩
  | 102 => ⟨S3300000x1, .i32⟩
  | 103 => ⟨S3300000, .f32⟩
  | 104 => ⟨S3300000, .f32⟩
  | 105 => ⟨S_, .i32⟩
  | 106 => ⟨S3300000, .i32⟩
  | 107 => ⟨S3300000, .i1⟩
  | 108 => ⟨S_, .i32⟩
  | 109 => ⟨S3300000, .i32⟩
  | 110 => ⟨S3300000, .i32⟩
  | 111 => ⟨S3300000, .i32⟩
  | 112 => ⟨S3300000x1, .i32⟩
  | 113 => ⟨S3300000x16, .f32⟩
  | 114 => ⟨S3300000x1, .f32⟩
  | 115 => ⟨S3300000x16, .f32⟩
  | 116 => ⟨S3300000x16, .f32⟩
  | 117 => ⟨S_, .f32⟩
  | 118 => ⟨S100000x16, .f32⟩
  | 119 => ⟨S3300000x1, .i32⟩
  | 120 => ⟨S100000x16, .f32⟩
  | 121 => ⟨S1x16, .f32⟩
  | 122 => ⟨S100000x16, .f32⟩
  | 123 => ⟨S100000x16, .f32⟩
  | 124 => ⟨S_, .f32⟩
  | 125 => ⟨S100000x16, .f32⟩
  | 126 => ⟨S100000x16, .f32⟩
  | 127 => ⟨S_, .f32⟩
  | _ => ⟨S100000x512, .f32⟩

abbrev hbmTy0_1 (i : Nat) : BufTy := match i % 128 with
  | 0 => ⟨S16, .f32⟩
  | 1 => ⟨S1x16, .f32⟩
  | 2 => ⟨S_, .f32⟩
  | 3 => ⟨S1x16, .f32⟩
  | 4 => ⟨S1x16, .f32⟩
  | 5 => ⟨S1x1, .f32⟩
  | 6 => ⟨S1x1, .f32⟩
  | 7 => ⟨S1x1, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S4000x512, .f32⟩
  | .local _ .vmem, ⟨1, _⟩ => ⟨S4000x512, .f32⟩
  | .local _ .vmem, ⟨2, _⟩ => ⟨S512x16, .f32⟩
  | .local _ .vmem, ⟨3, _⟩ => ⟨S4000x16, .f32⟩
  | .local _ .vmem, ⟨4, _⟩ => ⟨S4000x16, .f32⟩
  | .local _ .vmem, ⟨5, _⟩ => ⟨S4000x16, .f32⟩
  | .local _ .vmem, ⟨6, _⟩ => ⟨S4000x16, .f32⟩
  | .local _ .vmem, ⟨7, _⟩ => ⟨S16x16, .f32⟩
  | .local _ .vmem, ⟨8, _⟩ => ⟨S4000x16, .f32⟩
  | .local _ .vmem, ⟨9, _⟩ => ⟨S4000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_call3_cst : Ref sig .tc := ⟨.hbm, 124, rfl⟩
abbrev main_call3_v0 : Ref sig .tc := ⟨.hbm, 125, rfl⟩
abbrev main_v88 : Ref sig .tc := ⟨.hbm, 126, rfl⟩
abbrev main_cst_20 : Ref sig .tc := ⟨.hbm, 127, rfl⟩
abbrev main_v89 : Ref sig .tc := ⟨.hbm, 128, rfl⟩
abbrev main_v90 : Ref sig .tc := ⟨.hbm, 129, rfl⟩
abbrev main_cst_21 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S4000x16_S4000x16_0_0 : ∀ a, (![0, 0] : Fin 2 → Nat) a + S4000x16.size a ≤ S4000x16.size a
  h_S4000x16 : 0 < S4000x16.numel
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S4000x16_S4000x16 : S4000x16.ShapeCasts S4000x16
  inb_S16x16_S16x16_0_0 : ∀ a, (![0, 0] : Fin 2 → Nat) a + S16x16.size a ≤ S16x16.size a
  h_S16x16 : 0 < S16x16.numel
  reducesTo_S100000x16_S16_d0 : S100000x16.ReducesTo [0] S16
  h_S_ : 0 < S_.numel
  bcast_S_S1x16 : S_.BroadcastsInDim S1x16 (![] : Fin 0 → Fin S1x16.rank)
  bcast_S1_S1x1_1 : S1.BroadcastsInDim S1x1 (![1] : Fin 1 → Fin S1x1.rank)
  dot_S4000x512_S512x16_S4000x16_1_0_0_1_n_n_wf : DotDims.WF S4000x512 S512x16 S4000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S4000x16_S16x16_S4000x16_1_0_0_1_n_n_wf : DotDims.WF S4000x16 S16x16 S4000x16 [1] [0] [0] [1] [] []
  dot_S1x16_S16x1_S1x1_1_0_0_1_n_n_wf : DotDims.WF S1x16 S16x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x16.size a ≤ S16x16.size a
  hwx1_1 : ∀ i : grid1.Coords, EltTy.bits .f32 = 32 ∨ (Rect.block (s := S16x16) S16x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x16.size a ≤ S100000x16.size a
  hwx1_2 : ∀ i : grid1.Coords, EltTy.bits .f32 = 32 ∨ (Rect.block (s := S100000x16) S4000x16.size (cc1_transform_2 i) (hinb1_2 i)).WholeWords (EltTy.packing .f32)

variable [Facts₀]

def dot_S4000x512_S512x16_S4000x16_1_0_0_1_n_n : DotDims S4000x512 S512x16 S4000x16 where
  lhsContracting := [1]
  rhsContracting := [0]
  lhsNonContracting := [0]
  rhsNonContracting := [1]
  lhsBatch := []
  rhsBatch := []
  wf := dot_S4000x512_S512x16_S4000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S4000x16_S16x16_S4000x16_1_0_0_1_n_n : DotDims S4000x16 S16x16 S4000x16 where
  lhsContracting := [1]
  rhsContracting := [0]
  lhsNonContracting := [0]
  rhsNonContracting := [1]
  lhsBatch := []
  rhsBatch := []
  wf := dot_S4000x16_S16x16_S4000x16_1_0_0_1_n_n_wf
def dot_S1x16_S16x1_S1x1_1_0_0_1_n_n : DotDims S1x16 S16x1 S1x1 where
  lhsContracting := [1]
  rhsContracting := [0]
  lhsNonContracting := [0]
  rhsNonContracting := [1]
  lhsBatch := []
  rhsBatch := []
  wf := dot_S1x16_S16x1_S1x1_1_0_0_1_n_n_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S4000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S1x1 : Shape := ⟨2, ![1, 1]⟩

abbrev nBuf : Space → Nat
  | .hbm => 136
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x16, .f32⟩
  | 5 => ⟨S16, .f32⟩
  | 6 => ⟨S16x1, .f32⟩
  | 7 => ⟨S1, .f32⟩
  | 8 => ⟨S100000, .i32⟩
  | 9 => ⟨S1x3200000, .i32⟩
  | 10 => ⟨S3200000, .i32⟩
  | 11 => ⟨S3300000, .i32⟩
  | 12 => ⟨S1x3200000, .i32⟩
  | 13 => ⟨S3200000, .i32⟩
  | 14 => ⟨S3300000, .i32⟩
  | 15 => ⟨S100000x16, .f32⟩
  | 16 => ⟨S_, .f32⟩
  | 17 => ⟨S3300000, .f32⟩
  | 18 => ⟨S_, .f32⟩
  | 19 => ⟨S100000, .f32⟩
  | 20 => ⟨S3300000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S3300000, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x16, .f32⟩
  | 58 => ⟨S3300000x1, .f32⟩
  | 59 => ⟨S3300000x16, .f32⟩
  | 60 => ⟨S3300000x16, .f32⟩
  | 61 => ⟨S_, .f32⟩
  | 62 => ⟨S100000x16, .f32⟩
  | 63 => ⟨S3300000x1, .i32⟩
  | 64 => ⟨S100000x16, .f32⟩
  | 65 => ⟨S1x16, .f32⟩
  | 66 => ⟨S100000x16, .f32⟩
  | 67 => ⟨S100000x16, .f32⟩
  | 68 => ⟨S_, .f32⟩
  | 69 => ⟨S100000x16, .f32⟩
  | 70 => ⟨S100000x16, .f32⟩
  | 71 => ⟨S100000x16, .f32⟩
  | 72 => ⟨S_, .f32⟩
  | 73 => ⟨S3300000, .f32⟩
  | 74 => ⟨S_, .f32⟩
  | 75 => ⟨S100000, .f32⟩
  | 76 => ⟨S3300000x1, .i32⟩
  | 77 => ⟨S100000, .f32⟩
  | 78 => ⟨S_, .f32⟩
  | 79 => ⟨S100000, .f32⟩
  | 80 => ⟨S100000, .i1⟩
  | 81 => ⟨S100000, .f32⟩
  | 82 => ⟨S_, .f32⟩
  | 83 => ⟨S_, .f32⟩
  | 84 => ⟨S100000, .f32⟩
  | 85 => ⟨S100000, .f32⟩
  | 86 => ⟨S_, .i32⟩
  | 87 => ⟨S3300000, .i32⟩
  | 88 => ⟨S3300000, .i1⟩
  | 89 => ⟨S_, .i32⟩
  | 90 => ⟨S3300000, .i32⟩
  | 91 => ⟨S3300000, .i32⟩
  | 92 => ⟨S3300000, .i32⟩
  | 93 => ⟨S3300000x1, .i32⟩
  | 94 => ⟨S3300000, .f32⟩
  | 95 => ⟨S_, .i32⟩
  | 96 => ⟨S3300000, .i32⟩
  | 97 => ⟨S3300000, .i1⟩
  | 98 => ⟨S_, .i32⟩
  | 99 => ⟨S3300000, .i32⟩
  | 100 => ⟨S3300000, .i32⟩
  | 101 => ⟨S3300000, .i32⟩
  | 102 => ⟨S3300000x1, .i32⟩
  | 103 => ⟨S3300000, .f32⟩
  | 104 => ⟨S3300000, .f32⟩
  | 105 => ⟨S_, .i32⟩
  | 106 => ⟨S3300000, .i32⟩
  | 107 => ⟨S3300000, .i1⟩
  | 108 => ⟨S_, .i32⟩
  | 109 => ⟨S3300000, .i32⟩
  | 110 => ⟨S3300000, .i32⟩
  | 111 => ⟨S3300000, .i32⟩
  | 112 => ⟨S3300000x1, .i32⟩
  | 113 => ⟨S3300000x16, .f32⟩
  | 114 => ⟨S3300000x1, .f32⟩
  | 115 => ⟨S3300000x16, .f32⟩
  | 116 => ⟨S3300000x16, .f32⟩
  | 117 => ⟨S_, .f32⟩
  | 118 => ⟨S100000x16, .f32⟩
  | 119 => ⟨S3300000x1, .i32⟩
  | 120 => ⟨S100000x16, .f32⟩
  | 121 => ⟨S1x16, .f32⟩
  | 122 => ⟨S100000x16, .f32⟩
  | 123 => ⟨S100000x16, .f32⟩
  | 124 => ⟨S_, .f32⟩
  | 125 => ⟨S100000x16, .f32⟩
  | 126 => ⟨S100000x16, .f32⟩
  | 127 => ⟨S_, .f32⟩
  | _ => ⟨S100000x512, .f32⟩

abbrev hbmTy0_1 (i : Nat) : BufTy := match i % 128 with
  | 0 => ⟨S16, .f32⟩
  | 1 => ⟨S1x16, .f32⟩
  | 2 => ⟨S_, .f32⟩
  | 3 => ⟨S1x16, .f32⟩
  | 4 => ⟨S1x16, .f32⟩
  | 5 => ⟨S1x1, .f32⟩
  | 6 => ⟨S1x1, .f32⟩
  | 7 => ⟨S1x1, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_call3_cst : Ref sig .tc := ⟨.hbm, 124, rfl⟩
abbrev main_call3_v0 : Ref sig .tc := ⟨.hbm, 125, rfl⟩
abbrev main_v88 : Ref sig .tc := ⟨.hbm, 126, rfl⟩
abbrev main_cst_20 : Ref sig .tc := ⟨.hbm, 127, rfl⟩
abbrev main_v89 : Ref sig .tc := ⟨.hbm, 128, rfl⟩
abbrev main_v90 : Ref sig .tc := ⟨.hbm, 129, rfl⟩
abbrev main_cst_21 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S16_d0 : S100000x16.ReducesTo [0] S16
  h_S_ : 0 < S_.numel
  bcast_S_S1x16 : S_.BroadcastsInDim S1x16 (![] : Fin 0 → Fin S1x16.rank)
  bcast_S1_S1x1_1 : S1.BroadcastsInDim S1x1 (![1] : Fin 1 → Fin S1x1.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []
  dot_S1x16_S16x1_S1x1_1_0_0_1_n_n_wf : DotDims.WF S1x16 S16x1 S1x1 [1] [0] [0] [1] [] []

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S1x16_S16x1_S1x1_1_0_0_1_n_n : DotDims S1x16 S16x1 S1x1 where
  lhsContracting := [1]
  rhsContracting := [0]
  lhsNonContracting := [0]
  rhsNonContracting := [1]
  lhsBatch := []
  rhsBatch := []
  wf := dot_S1x16_S16x1_S1x1_1_0_0_1_n_n_wf

class Facts : Prop extends Facts₀ where

variable [Facts]
-- ==== Proof.KernelRun.lean ====
/-
  The idealized kernel's run with its result named.  The program is a sequence of stretches of host operations and two
  matrix-product regions; the generated frame module folds the device's buffer contents through that sequence from the
  launch memory (`Gen.W0` … `Gen.W12`) and shows that every execution ends with every unscoped buffer holding the last
  fold.  Here the same run is read at the result buffer as well as at the arguments: the result ends at the last fold's
  contents of that buffer, the arguments as launched.
-/
import proofs.«116130_j6605659701468_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last fold's
    contents, and each argument array ends as launched. -/
theorem run_result : θ_run defs (onTc (τ := τ) (main (F := F))) ⟨m, fun _ => 0, ρ⟩ (fun r => ∀ c : Dev nD,
      r.2.mem ((c.tc : Thread nD τ).loc main_v95) = W12 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v95 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.RunValue

end
-- ==== Proof.LibRowOps.lean ====
/-
  General reads at an index, at the ideal values, used by the row-local stages of a network: a matrix product
  accumulated into zero, a column broadcast across the columns, and the select that spells the exponential linear unit.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section

open scoped BigOperators

namespace Cert.RowLib

open Idealize.ShloMosaic Idealize.ShloMosaic.ValueIdx

/-- A dot's dimension numbers that contract the left operand's columns with the right operand's rows, with no batch
    axis, are the plain m×k by k×n product's. -/
theorem dotDims_eq_plain {m k n : Nat} (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = []) : D = DotDims.plain m k n := by
  obtain ⟨lc, rc, ln, rn, lb, rb, wf⟩ := D
  dsimp only at hlc hrc hln hrn hlb hrb
  subst hlc hrc hln hrn hlb hrb
  rfl

/-- The plain product of an m×k by a k×n matrix accumulated into the zero splat, read at (a, b), is the sum over the
    contracted coordinate of the products of the entries: row a of the left operand against column b of the right. -/
theorem matmul_plain_zero_ix2 {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on "h is above z" is the `if` on the order of the extended reals. -/
theorem select_cmpf_ogt {α : Type} (h z : Ideal .f32) (A B : α) :
    Scalar.select (FloatOps.cmpf .ogt h z) A B = if z < h then A else B := by
  show Scalar.select (Ideal.cmp .ogt h z) A B = _
  unfold Ideal.cmp Scalar.select
  by_cases hh : z < h <;> simp [hh]

end Cert.RowLib

end
-- ==== Proof.LibMatRows.lean ====
/-
  A matrix product read row by row, at the ideal values.  Entry (r, j) of an M×K matrix times a K×N matrix is the sum over k
  of X(r,k)·W(k,j): a function of row r of the left operand alone.  So the host's one whole product, a kernel's product
  into a zero accumulator, and any block of rows of either are all read by the same formula.  Nothing here mentions a program.
-/
import Idealize.ShloMosaic.PureOps.Ideal.Laws
import Idealize.ShloMosaic.Lib.ValueIdx
import Idealize.ShloMosaic.Lib.StackMember
import Idealize.ShloMosaic.Lib.KernelVsHost

noncomputable section

open scoped BigOperators

namespace Cert.MatRowsLib

open Idealize.ShloMosaic Idealize.ShloMosaic.ValueIdx

/-- The product of an M×K and a K×N array of extended reals, index by index: entry (r, j) is the sum over k of
    X(r,k)·W(k,j). -/
def rowsTimes {M K N : Nat} (X : (⟨2, ![M, K]⟩ : Shape).Idx → EReal) (W : (⟨2, ![K, N]⟩ : Shape).Idx → EReal) :
    (⟨2, ![M, N]⟩ : Shape).Idx → EReal :=
  fun i => ∑ k : Fin K, X (ix2 (i 0) k) * W (ix2 k (i 1))

/-- The host's plain product is `rowsTimes`. -/
theorem hostDot_plain_eq {M K N : Nat} {φ₁ φ₂ : FTy} (prec : Option ContractPrecision)
    (X : FVec Ideal ⟨2, ![M, K]⟩ φ₁) (W : FVec Ideal ⟨2, ![K, N]⟩ φ₂) :
    (Host.dotGeneral (DotDims.plain M K N) prec X W : (⟨2, ![M, N]⟩ : Shape).Idx → EReal) = rowsTimes X W := by
  funext i
  rw [eq_ix2 i]
  exact StackMember.dotGeneral_plain_apply prec X W (i 0) (i 1)

/-- A kernel's plain product accumulated into the zero splat is `rowsTimes` too: the zero accumulator adds nothing. -/
theorem matmul_plain_zero_eq {M K N : Nat} {φ₁ φ₂ : FTy} (prec : Option ContractPrecision)
    (X : FVec Ideal ⟨2, ![M, K]⟩ φ₁) (W : FVec Ideal ⟨2, ![K, N]⟩ φ₂) :
    (matmul (DotDims.plain M K N) prec X W (constant ⟨2, ![M, N]⟩ .f32 0x00000000#32) : (⟨2, ![M, N]⟩ : Shape).Idx → EReal)
      = rowsTimes X W := by
  rw [matmul_zero_eq_dotGeneral]
  exact hostDot_plain_eq prec X W

end Cert.MatRowsLib

end
-- ==== Proof.RegionValue.lean ====
/-
  What each of the two matrix-product regions leaves in its output array, at the ideal values.

  A region walks the 100000 rows of its left operand in 25 blocks of 4000 rows.  At block t the body loads rows
  4000·t … 4000·t+3999 of the left operand and the whole right operand, and stores their product (accumulated into zero;
  the change of float format before the product is the identity on extended reals).  Entry (a, j) of that product needs
  only row a of the block, which is row 4000·t + a of the whole left operand: so the block written back at point t is
  rows 4000·t … of the ONE whole product (`rowsTimes`), and since the 25 blocks tile the rows, the output array ends holding
  the whole product.  The arrays are read as the region finds them (the parameter `V`).
-/
import proofs.«116130_j6605659701468_1_alg».proof.Proof.Gen.KernelIdeal.Frame
import proofs.«116130_j6605659701468_1_alg».proof.Proof.LibRowOps
import proofs.«116130_j6605659701468_1_alg».proof.Proof.LibMatRows
import Idealize.ShloMosaic.Lib.Pipeline.Value
import Idealize.ShloMosaic.Lib.ValueIdx

set_option maxRecDepth 16384

noncomputable section

open scoped BigOperators

namespace Cert.KernelIdeal.RegionValue

open Cert.KernelIdeal Cert.KernelIdeal.Gen Cert.MatRowsLib
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-! ## The bodies' stored values, index by index -/

/-- The first region's stored value at (a, j): row a of the 4000×512 block against column j of the 512×16 operand. -/
theorem pay0_apply (x0 : Vec Ideal S4000x512 .f32) (x1 : Vec Ideal S512x16 .f32) (a : Fin 4000) (b : Fin 16) :
    k0_pay1 x0 x1 (ix2 a b) = ∑ k : Fin 512, x0 (ix2 a k) * x1 (ix2 k b) := by
  unfold k0_pay1
  rw [Cert.RowLib.dotDims_eq_plain dot_S4000x512_S512x16_S4000x16_1_0_0_1_n_n rfl rfl rfl rfl rfl rfl]
  exact congrFun (matmul_plain_zero_eq none (truncf .bf16 x0 bitsLt_bf16_f32) (truncf .bf16 x1 bitsLt_bf16_f32)) (ix2 a b)

/-- The second region's stored value at (a, j): row a of the 4000×16 block against column j of the 16×16 operand (the
    shape cast before the product is between equal shapes). -/
theorem pay1_apply (x0 : Vec Ideal S4000x16 .f32) (x1 : Vec Ideal S16x16 .f32) (a : Fin 4000) (b : Fin 16) :
    k1_pay1 x0 x1 (ix2 a b) = ∑ k : Fin 16, x0 (ix2 a k) * x1 (ix2 k b) := by
  unfold k1_pay1
  rw [Cert.RowLib.dotDims_eq_plain dot_S4000x16_S16x16_S4000x16_1_0_0_1_n_n rfl rfl rfl rfl rfl rfl, shapeCast_self]
  exact congrFun (matmul_plain_zero_eq none (truncf .bf16 x0 bitsLt_bf16_f32) (truncf .bf16 x1 bitsLt_bf16_f32)) (ix2 a b)

/-! ## Region 0 -/

/-- The printed index maps, decided over the 25 grid points: the left operand's block moves with the output's block down
    the rows, every other block index is 0. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 24 :=
  (by decide +kernel : ∀ t : Fin grid0.N, _)

/-- Every one of the 25 row blocks is some point's output block. -/
theorem idx_onto0 : ∀ q : Fin 25, ∃ t : Fin cfg0.N, win0_2.index t = ![q.val, 0] :=
  (by decide +kernel : ∀ q : Fin 25, ∃ t : Fin grid0.N, win0_2.index t = ![q.val, 0])

/-- What point t writes back is block t of the whole product of the two operand arrays as the region finds them. -/
theorem flushed0_eq (c : Dev nD) (t : Fin cfg0.N) :
    (dat0 V c).flushed 2 t = ((cfg0.win 2).blk t).view.read (Elt Ideal)
      (rowsTimes (M := 100000) (K := 512) (N := 16) (V c main_arg0) (V c main_arg2)) := by
  show (cfg0.win 2).cut (grid0.coords t) ((dat0 V c).after 2 t) = _
  rw [after0_2]
  unfold out0_2
  rw [View.canon_unit_zero off_zero]
  simp only [View.ld_unit_zero (S := S4000x512) off_zero, View.ld_unit_zero (S := S512x16) off_zero]
  obtain ⟨e0, e1, e2, e3, e4, e5⟩ := idx_facts0 t
  funext j
  obtain ⟨a, b, rfl⟩ : ∃ (a : Fin 4000) (b : Fin 16), j = ix2 a b := ⟨j 0, j 1, eq_ix2 j⟩
  show k0_pay1 (iblk0 V c 0 t) (iblk0 V c 1 t) (ix2 a b)
    = rowsTimes (M := 100000) (K := 512) (N := 16) (V c main_arg0) (V c main_arg2) (((cfg0.win 2).blk t).view.emb (ix2 a b))
  refine (pay0_apply (iblk0 V c 0 t) (iblk0 V c 1 t) a b).trans ?_
  unfold rowsTimes
  refine Finset.sum_congr rfl fun k _ => ?_
  have h0 : iblk0 V c 0 t (ix2 a k) = V c main_arg0 (ix2 ((((cfg0.win 2).blk t).view.emb (ix2 a b)) 0) k) := by
    show V c main_arg0 (((cfg0.win 0).blk t).view.emb (ix2 a k)) = _
    refine congrArg (V c main_arg0) (funext fun ax => Fin.ext ?_)
    match ax with
    | ⟨0, _⟩ => show win0_0.index t (0 : Fin 2) * 4000 + 1 * a.val = win0_2.index t (0 : Fin 2) * 4000 + 1 * a.val; omega
    | ⟨1, _⟩ => show win0_0.index t (1 : Fin 2) * 512 + 1 * k.val = k.val; omega
  have h1 : iblk0 V c 1 t (ix2 k b) = V c main_arg2 (ix2 k ((((cfg0.win 2).blk t).view.emb (ix2 a b)) 1)) := by
    show V c main_arg2 (((cfg0.win 1).blk t).view.emb (ix2 k b)) = _
    refine congrArg (V c main_arg2) (funext fun ax => Fin.ext ?_)
    match ax with
    | ⟨0, _⟩ => show win0_1.index t (0 : Fin 2) * 512 + 1 * k.val = k.val; omega
    | ⟨1, _⟩ => show win0_1.index t (1 : Fin 2) * 16 + 1 * b.val = win0_2.index t (1 : Fin 2) * 16 + 1 * b.val; omega
  rw [h0, h1]

/-- An index of the output array is in point t's block iff each coordinate is in the block's range on its axis. -/
theorem mem_blk0 (t : Fin cfg0.N) (i : S100000x16.Idx) :
    i ∈ ((cfg0.win 2).blk t).view.set ↔ ∀ a : Fin 2, win0_2.index t a * S4000x16.size a ≤ (i a).val ∧ (i a).val < win0_2.index t a * S4000x16.size a + S4000x16.size a := by
  show i ∈ ((View.whole main_v7).slice (win0_2.rect t)).set ↔ _
  rw [View.set_slice_whole, Rect.mem_set_unit]
  exact Iff.rfl

/-- The 25 blocks tile the rows: row r is in the block of point r / 4000. -/
theorem cover0 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := idx_onto0 ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 16 ≤ (i 1).val ∧ (i 1).val < win0_2.index t (1 : Fin 2) * 16 + 16; omega

/-- The output array after the region: the whole product of the two operand arrays as the region finds them. -/
theorem final0 (c : Dev nD) :
    (dat0 V c).arrAt 2 cfg0.N = rowsTimes (M := 100000) (K := 512) (N := 16) (V c main_arg0) (V c main_arg2) :=
  (dat0 V c).arrAt_eq_of_cover 2 _ (fun t _ => flushed0_eq V c t) (cover0)

/-! ## Region 1 -/

/-- The printed index maps, decided over the 25 grid points: the left operand's block moves with the output's block down
    the rows, every other block index is 0. -/
theorem idx_facts1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 24 :=
  (by decide +kernel : ∀ t : Fin grid1.N, _)

/-- Every one of the 25 row blocks is some point's output block. -/
theorem idx_onto1 : ∀ q : Fin 25, ∃ t : Fin cfg1.N, win1_2.index t = ![q.val, 0] :=
  (by decide +kernel : ∀ q : Fin 25, ∃ t : Fin grid1.N, win1_2.index t = ![q.val, 0])

/-- What point t writes back is block t of the whole product of the two operand arrays as the region finds them. -/
theorem flushed1_eq (c : Dev nD) (t : Fin cfg1.N) :
    (dat1 V c).flushed 2 t = ((cfg1.win 2).blk t).view.read (Elt Ideal)
      (rowsTimes (M := 100000) (K := 16) (N := 16) (V c main_v47) (V c main_arg4)) := by
  show (cfg1.win 2).cut (grid1.coords t) ((dat1 V c).after 2 t) = _
  rw [after1_2]
  unfold out1_2
  rw [View.canon_unit_zero off_zero]
  simp only [View.ld_unit_zero (S := S4000x16) off_zero, View.ld_unit_zero (S := S16x16) off_zero]
  obtain ⟨e0, e1, e2, e3, e4, e5⟩ := idx_facts1 t
  funext j
  obtain ⟨a, b, rfl⟩ : ∃ (a : Fin 4000) (b : Fin 16), j = ix2 a b := ⟨j 0, j 1, eq_ix2 j⟩
  show k1_pay1 (iblk1 V c 0 t) (iblk1 V c 1 t) (ix2 a b)
    = rowsTimes (M := 100000) (K := 16) (N := 16) (V c main_v47) (V c main_arg4) (((cfg1.win 2).blk t).view.emb (ix2 a b))
  refine (pay1_apply (iblk1 V c 0 t) (iblk1 V c 1 t) a b).trans ?_
  unfold rowsTimes
  refine Finset.sum_congr rfl fun k _ => ?_
  have h0 : iblk1 V c 0 t (ix2 a k) = V c main_v47 (ix2 ((((cfg1.win 2).blk t).view.emb (ix2 a b)) 0) k) := by
    show V c main_v47 (((cfg1.win 0).blk t).view.emb (ix2 a k)) = _
    refine congrArg (V c main_v47) (funext fun ax => Fin.ext ?_)
    match ax with
    | ⟨0, _⟩ => show win1_0.index t (0 : Fin 2) * 4000 + 1 * a.val = win1_2.index t (0 : Fin 2) * 4000 + 1 * a.val; omega
    | ⟨1, _⟩ => show win1_0.index t (1 : Fin 2) * 16 + 1 * k.val = k.val; omega
  have h1 : iblk1 V c 1 t (ix2 k b) = V c main_arg4 (ix2 k ((((cfg1.win 2).blk t).view.emb (ix2 a b)) 1)) := by
    show V c main_arg4 (((cfg1.win 1).blk t).view.emb (ix2 k b)) = _
    refine congrArg (V c main_arg4) (funext fun ax => Fin.ext ?_)
    match ax with
    | ⟨0, _⟩ => show win1_1.index t (0 : Fin 2) * 16 + 1 * k.val = k.val; omega
    | ⟨1, _⟩ => show win1_1.index t (1 : Fin 2) * 16 + 1 * b.val = win1_2.index t (1 : Fin 2) * 16 + 1 * b.val; omega
  rw [h0, h1]

/-- An index of the output array is in point t's block iff each coordinate is in the block's range on its axis. -/
theorem mem_blk1 (t : Fin cfg1.N) (i : S100000x16.Idx) :
    i ∈ ((cfg1.win 2).blk t).view.set ↔ ∀ a : Fin 2, win1_2.index t a * S4000x16.size a ≤ (i a).val ∧ (i a).val < win1_2.index t a * S4000x16.size a + S4000x16.size a := by
  show i ∈ ((View.whole main_v48).slice (win1_2.rect t)).set ↔ _
  rw [View.set_slice_whole, Rect.mem_set_unit]
  exact Iff.rfl

/-- The 25 blocks tile the rows: row r is in the block of point r / 4000. -/
theorem cover1 (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  obtain ⟨t, ht⟩ := idx_onto1 ⟨(i 0).val / 4000, by omega⟩
  have q0 : win1_2.index t (0 : Fin 2) = (i 0).val / 4000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 16 ≤ (i 1).val ∧ (i 1).val < win1_2.index t (1 : Fin 2) * 16 + 16; omega

/-- The output array after the region: the whole product of the two operand arrays as the region finds them. -/
theorem final1 (c : Dev nD) :
    (dat1 V c).arrAt 2 cfg1.N = rowsTimes (M := 100000) (K := 16) (N := 16) (V c main_v47) (V c main_arg4) :=
  (dat1 V c).arrAt_eq_of_cover 2 _ (fun t _ => flushed1_eq V c t) (cover1)

end Cert.KernelIdeal.RegionValue

end
-- ==== Proof.ConvChain.lean ====
/-
  The host side of one graph convolution, and of the read-out, as functions of their operands.

  With src and dst the source and destination of every edge (self-loops appended), deg(n) the number of edges into node n,
  dinv = deg^(-1/2) where deg > 0 and 0 elsewhere:
    conv xw src dst b  =  max( Σ_{e : dst e = n} xw[src e] · dinv[src e] · dinv[dst e]  +  b , 0 )
  (a gather of the rows of xw, a scale per edge, a scatter-add into the destination rows, the bias, the rectifier), and
    head h w b  =  (mean over the nodes of h) · w + b.
  Each definition is the program's own sequence of host operations on its operands.
-/
import proofs.«116130_j6605659701468_1_alg».proof.Proof.Gen.KernelIdeal

noncomputable section

namespace Cert.KernelIdeal.ConvChain

open Cert.KernelIdeal Cert.KernelIdeal.Facts₀ Cert.KernelIdeal.Facts Idealize.ShloMosaic

variable {F : FTy → Type} [FloatOps F]

/-- An index below zero counts from the end: i + 100000 where i < 0, i elsewhere. -/
def wrap (i : IVec S3300000 32) : IVec S3300000 32 :=
  select (cmpi .slt i (broadcastInDim S3300000 ![] bcast_S_S3300000 (constantI S_ 32 0#32)))
    (addi i (broadcastInDim S3300000 ![] bcast_S_S3300000 (constantI S_ 32 100000#32))) i

/-- The number of edges into each node: ones scatter-added at the destinations. -/
def deg (dst : IVec S3300000 32) : FVec F S100000 .f32 :=
  Host.scatterAdd scatter_S100000_S3300000x1_S3300000_n_0_0_1
    (broadcastInDim S100000 ![] bcast_S_S100000 (constant S_ .f32 0x00000000#32))
    (broadcastInDim S3300000x1 ![0] bcast_S3300000_S3300000x1_0 dst)
    (broadcastInDim S3300000 ![] bcast_S_S3300000 (constant S_ .f32 0x3F800000#32))

/-- deg^(-1/2) where the degree is positive, 0 elsewhere. -/
def dinv (dst : IVec S3300000 32) : FVec F S100000 .f32 :=
  select (cmpf .ogt (deg (F := F) dst) (broadcastInDim S100000 ![] bcast_S_S100000 (constant S_ .f32 0x00000000#32)))
    (Host.rsqrt (deg (F := F) dst))
    (broadcastInDim S100000 ![] bcast_S_S100000 (constant S_ .f32 0x00000000#32))

/-- The weight of every edge: dinv at its source times dinv at its destination. -/
def edgeWeight (src dst : IVec S3300000 32) : FVec F S3300000 .f32 :=
  mulf
    (Host.gather gather_S100000_S3300000x1_S3300000_n_0_n_n_0_1_1 (dinv (F := F) dst)
      (broadcastInDim S3300000x1 ![0] bcast_S3300000_S3300000x1_0 (wrap src)))
    (Host.gather gather_S100000_S3300000x1_S3300000_n_0_n_n_0_1_1 (dinv (F := F) dst)
      (broadcastInDim S3300000x1 ![0] bcast_S3300000_S3300000x1_0 (wrap dst)))

/-- The weighted rows of xw at the sources, summed into the destination rows. -/
def agg (xw : FVec F S100000x16 .f32) (src dst : IVec S3300000 32) : FVec F S100000x16 .f32 :=
  Host.scatterAdd scatter_S100000x16_S3300000x1_S3300000x16_1_0_0_1
    (broadcastInDim S100000x16 ![] bcast_S_S100000x16 (constant S_ .f32 0x00000000#32))
    (broadcastInDim S3300000x1 ![0] bcast_S3300000_S3300000x1_0 dst)
    (mulf
      (Host.gather gather_S100000x16_S3300000x1_S3300000x16_1_0_n_n_0_1_116 xw
        (broadcastInDim S3300000x1 ![0] bcast_S3300000_S3300000x1_0 (wrap src)))
      (broadcastInDim S3300000x16 ![0, 1] bcast_S3300000x1_S3300000x16_0_1
        (broadcastInDim S3300000x1 ![0] bcast_S3300000_S3300000x1_0 (edgeWeight (F := F) src dst))))

/-- One convolution after its matrix product: aggregate, add the bias to every row, take the maximum with 0. -/
def conv (xw : FVec F S100000x16 .f32) (src dst : IVec S3300000 32) (b : FVec F S16 .f32) : FVec F S100000x16 .f32 :=
  maximumf
    (addf (agg xw src dst)
      (broadcastInDim S100000x16 ![0, 1] bcast_S1x16_S100000x16_0_1 (broadcastInDim S1x16 ![1] bcast_S16_S1x16_1 b)))
    (broadcastInDim S100000x16 ![] bcast_S_S100000x16 (constant S_ .f32 0x00000000#32))

/-- The read-out: the mean of the rows (their sum divided by 100000), times the last layer's weights, plus its bias. -/
def head (h : FVec F S100000x16 .f32) (w : FVec F S16x1 .f32) (b : FVec F S1 .f32) : FVec F S1x1 .f32 :=
  addf
    (Host.dotGeneral dot_S1x16_S16x1_S1x1_1_0_0_1_n_n none
      (Host.divf
        (broadcastInDim S1x16 ![1] bcast_S16_S1x16_1
          (Host.reduceAdd h (constant S_ .f32 0x00000000#32) reducesTo_S100000x16_S16_d0 h_S_))
        (broadcastInDim S1x16 ![] bcast_S_S1x16 (constant S_ .f32 0x47C35000#32)))
      w)
    (broadcastInDim S1x1 ![1] bcast_S1_S1x1_1 b)

end Cert.KernelIdeal.ConvChain

end
-- ==== Proof.RefChain.lean ====
/-
  The reference's stage functions are the convolution chain's.

  The reference computes, for each of its two layers, the degree of every node, its inverse square root, the weight of
  every edge, the weighted aggregation of the rows of the layer's matrix product, the bias and the rectifier; then the mean
  over the nodes and the last linear layer.  Stage by stage these are the functions `deg`, `dinv`, `wrap`, `edgeWeight`, `agg`,
  `conv` and `head` of the convolution chain applied to the edge sources and destinations, the matrix products and the
  biases: each stage below unfolds to the same operation on operands already identified.
-/
import proofs.«116130_j6605659701468_1_alg».proof.Proof.RefReadPatched
import proofs.«116130_j6605659701468_1_alg».proof.Proof.ConvChain

noncomputable section

namespace Cert.ReferenceIdeal.RefChain

open Cert.ReferenceIdeal Idealize.ShloMosaic
open Cert.KernelIdeal.ConvChain (wrap deg dinv edgeWeight agg conv head)

variable (x0 : (⟨S100000x512, .f32⟩ : BufTy).Contents (Elt Ideal)) (x1 : (⟨S2x3200000, .i32⟩ : BufTy).Contents (Elt Ideal)) (x2 : (⟨S512x16, .f32⟩ : BufTy).Contents (Elt Ideal))
  (x3 : (⟨S16, .f32⟩ : BufTy).Contents (Elt Ideal)) (x4 : (⟨S16x16, .f32⟩ : BufTy).Contents (Elt Ideal)) (x5 : (⟨S16, .f32⟩ : BufTy).Contents (Elt Ideal)) (x6 : (⟨S16x1, .f32⟩ : BufTy).Contents (Elt Ideal)) (x7 : (⟨S1, .f32⟩ : BufTy).Contents (Elt Ideal))

/-! ## First layer -/

theorem deg_a : Read.val_main_v11 (F := Ideal) x1 = deg (F := Ideal) (Read.val_main_v6 (F := Ideal) x1) := by
  unfold Read.val_main_v11 Read.val_main_v10 Read.val_main_v9 Read.val_main_v8 Read.val_main_cst Read.val_main_cst_0 deg; rfl

theorem dinv_a : Read.val_main_v15 (F := Ideal) x1 = dinv (F := Ideal) (Read.val_main_v6 (F := Ideal) x1) := by
  unfold Read.val_main_v15 Read.val_main_v13 Read.val_main_v14 Read.val_main_call0_v1 Read.val_main_call0_v0 Read.val_main_cst_2 Read.val_main_v12 Read.val_main_cst_1; rw [deg_a]; unfold dinv; rfl

theorem wrap_src_a : Read.val_main_v20 (F := Ideal) x1 = wrap (Read.val_main_v3 (F := Ideal) x1) := by
  unfold Read.val_main_v20 Read.val_main_v17 Read.val_main_v19 Read.val_main_v16 Read.val_main_v18 Read.val_main_c Read.val_main_c_3 wrap; rfl

theorem wrap_dst_a : Read.val_main_v27 (F := Ideal) x1 = wrap (Read.val_main_v6 (F := Ideal) x1) := by
  unfold Read.val_main_v27 Read.val_main_v24 Read.val_main_v26 Read.val_main_v23 Read.val_main_v25 Read.val_main_c_4 Read.val_main_c_5 wrap; rfl

theorem wrap_src_a' : Read.val_main_v35 (F := Ideal) x1 = wrap (Read.val_main_v3 (F := Ideal) x1) := by
  unfold Read.val_main_v35 Read.val_main_v32 Read.val_main_v34 Read.val_main_v31 Read.val_main_v33 Read.val_main_c_6 Read.val_main_c_7 wrap; rfl

theorem edgeWeight_a : Read.val_main_v30 (F := Ideal) x1
    = edgeWeight (F := Ideal) (Read.val_main_v3 (F := Ideal) x1) (Read.val_main_v6 (F := Ideal) x1) := by
  unfold Read.val_main_v30 Read.val_main_v22 Read.val_main_v29 Read.val_main_v21 Read.val_main_v28; rw [dinv_a, wrap_src_a, wrap_dst_a]; unfold edgeWeight; rfl

theorem agg_a : Read.val_main_v43 (F := Ideal) x0 x1 x2
    = agg (F := Ideal) (Read.val_main_v7 (F := Ideal) x0 x2) (Read.val_main_v3 (F := Ideal) x1) (Read.val_main_v6 (F := Ideal) x1) := by
  unfold Read.val_main_v43 Read.val_main_v41 Read.val_main_v42 Read.val_main_v40 Read.val_main_v37 Read.val_main_v39 Read.val_main_v38 Read.val_main_v36 Read.val_main_cst_8; rw [edgeWeight_a, wrap_src_a']; unfold agg; rfl

theorem conv_a : Read.val_main_v47 (F := Ideal) x0 x1 x2 x3
    = conv (F := Ideal) (Read.val_main_v7 (F := Ideal) x0 x2) (Read.val_main_v3 (F := Ideal) x1) (Read.val_main_v6 (F := Ideal) x1) x3 := by
  unfold Read.val_main_v47 Read.val_main_v46 Read.val_main_v45 Read.val_main_v44 Read.val_main_call1_v0 Read.val_main_call1_cst; rw [agg_a]; unfold conv; rfl

/-! ## Second layer -/

theorem deg_b : Read.val_main_v52 (F := Ideal) x1 = deg (F := Ideal) (Read.val_main_v6 (F := Ideal) x1) := by
  unfold Read.val_main_v52 Read.val_main_v51 Read.val_main_v50 Read.val_main_v49 Read.val_main_cst_9 Read.val_main_cst_10 deg; rfl

theorem dinv_b : Read.val_main_v56 (F := Ideal) x1 = dinv (F := Ideal) (Read.val_main_v6 (F := Ideal) x1) := by
  unfold Read.val_main_v56 Read.val_main_v54 Read.val_main_v55 Read.val_main_call2_v1 Read.val_main_call2_v0 Read.val_main_cst_12 Read.val_main_v53 Read.val_main_cst_11; rw [deg_b]; unfold dinv; rfl

theorem wrap_src_b : Read.val_main_v61 (F := Ideal) x1 = wrap (Read.val_main_v3 (F := Ideal) x1) := by
  unfold Read.val_main_v61 Read.val_main_v58 Read.val_main_v60 Read.val_main_v57 Read.val_main_v59 Read.val_main_c_13 Read.val_main_c_14 wrap; rfl

theorem wrap_dst_b : Read.val_main_v68 (F := Ideal) x1 = wrap (Read.val_main_v6 (F := Ideal) x1) := by
  unfold Read.val_main_v68 Read.val_main_v65 Read.val_main_v67 Read.val_main_v64 Read.val_main_v66 Read.val_main_c_15 Read.val_main_c_16 wrap; rfl

theorem wrap_src_b' : Read.val_main_v76 (F := Ideal) x1 = wrap (Read.val_main_v3 (F := Ideal) x1) := by
  unfold Read.val_main_v76 Read.val_main_v73 Read.val_main_v75 Read.val_main_v72 Read.val_main_v74 Read.val_main_c_17 Read.val_main_c_18 wrap; rfl

theorem edgeWeight_b : Read.val_main_v71 (F := Ideal) x1
    = edgeWeight (F := Ideal) (Read.val_main_v3 (F := Ideal) x1) (Read.val_main_v6 (F := Ideal) x1) := by
  unfold Read.val_main_v71 Read.val_main_v63 Read.val_main_v70 Read.val_main_v62 Read.val_main_v69; rw [dinv_b, wrap_src_b, wrap_dst_b]; unfold edgeWeight; rfl

theorem agg_b : Read.val_main_v84 (F := Ideal) x0 x1 x2 x3 x4
    = agg (F := Ideal) (Read.val_main_v48 (F := Ideal) x0 x1 x2 x3 x4) (Read.val_main_v3 (F := Ideal) x1) (Read.val_main_v6 (F := Ideal) x1) := by
  unfold Read.val_main_v84 Read.val_main_v82 Read.val_main_v83 Read.val_main_v81 Read.val_main_v78 Read.val_main_v80 Read.val_main_v79 Read.val_main_v77 Read.val_main_cst_19; rw [edgeWeight_b, wrap_src_b']; unfold agg; rfl

theorem conv_b : Read.val_main_v88 (F := Ideal) x0 x1 x2 x3 x4 x5
    = conv (F := Ideal) (Read.val_main_v48 (F := Ideal) x0 x1 x2 x3 x4) (Read.val_main_v3 (F := Ideal) x1) (Read.val_main_v6 (F := Ideal) x1) x5 := by
  unfold Read.val_main_v88 Read.val_main_v87 Read.val_main_v86 Read.val_main_v85 Read.val_main_call3_v0 Read.val_main_call3_cst; rw [agg_b]; unfold conv; rfl

/-! ## The read-out -/

theorem head_eq : Read.val_main_v95 (F := Ideal) x0 x1 x2 x3 x4 x5 x6 x7
    = head (F := Ideal) (Read.val_main_v88 (F := Ideal) x0 x1 x2 x3 x4 x5) x6 x7 := by
  unfold Read.val_main_v95 Read.val_main_v93 Read.val_main_v94 Read.val_main_v92 Read.val_main_v91 Read.val_main_v90 Read.val_main_v89 Read.val_main_cst_20 Read.val_main_cst_21 head; rfl

end Cert.ReferenceIdeal.RefChain

end
-- ==== Proof.HostFold.lean ====
/-
  The kernel program's stretches of host operations, folded.  Between its two matrix-product regions, and after the second,
  the program runs the host side of a graph convolution on the region's output: read at the stretch's last buffer, the
  fold of the operations over any starting contents is the convolution chain (`conv`, and `head` at the end) of the
  contents of the few buffers the stretch reads — the region's output, the edge sources and destinations, the bias.  The
  reference's stage functions are the same chain (RefChain), so the fold is the reference's stage function of the
  arguments whenever those few buffers hold the reference's earlier stages.
-/
import proofs.«116130_j6605659701468_1_alg».proof.Proof.Gen.KernelIdeal.Launch
import proofs.«116130_j6605659701468_1_alg».proof.Proof.RefReadPatched
import proofs.«116130_j6605659701468_1_alg».proof.Proof.ConvChain
import proofs.«116130_j6605659701468_1_alg».proof.Proof.RefChain
import Idealize.ShloMosaic.Lib.StableHlo.Run

set_option maxRecDepth 16384

noncomputable section

namespace Cert.KernelIdeal.HostFold

open Cert.KernelIdeal Cert.KernelIdeal.Gen Cert.KernelIdeal.ConvChain
open Idealize.ShloMosaic Idealize.ShloMosaic.TcCoe Idealize.SL.Sem Idealize.ShloMosaic.StableHlo

variable (Vb : Valuation τ sig (Elt Ideal))

/-! ## The index preparation -/

/-- The edge sources with the self-loops appended, as the reference's stage of the edge array. -/
theorem pre_v3 : StableHlo.after hostOps0 Vb (Proc.devRef .tc main_v3)
    = Cert.ReferenceIdeal.Read.val_main_v3 (F := Ideal) (Vb (Proc.devRef .tc main_arg1)) := by
  after_results
  rfl

/-- The edge destinations with the self-loops appended. -/
theorem pre_v6 : StableHlo.after hostOps0 Vb (Proc.devRef .tc main_v6)
    = Cert.ReferenceIdeal.Read.val_main_v6 (F := Ideal) (Vb (Proc.devRef .tc main_arg1)) := by
  after_results
  rfl

/-! ## The outlined helper functions' stretches, with their casts between equal types removed

A call of an outlined helper (the select of the inverse square root, the rectifier) prints as operations over typed
references, each of which casts its operands and its result along an equation between the buffer's type and the value's
type; for these buffers the two are the same type and the casts are the identity. -/

theorem where1_eq : (hostOps1_1 : List (HloOp τ sig (Elt Ideal))) =
    [ StableHlo.unary main_cst_2 main_call0_v0 ((fun v => v) : (⟨S_, .f32⟩ : BufTy).Contents (Elt Ideal) → (⟨S_, .f32⟩ : BufTy).Contents (Elt Ideal)),
      StableHlo.unary main_call0_v0 main_call0_v1 (broadcastInDim S100000 ![] bcast_S_S100000 : (⟨S_, .f32⟩ : BufTy).Contents (Elt Ideal) → (⟨S100000, .f32⟩ : BufTy).Contents (Elt Ideal)),
      StableHlo.ternary main_v13 main_v14 main_call0_v1 main_v15 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ] := rfl

theorem relu1_eq : (hostOps1_3 : List (HloOp τ sig (Elt Ideal))) =
    [ StableHlo.nullary main_call1_cst (constant (F := Ideal) S_ .f32 0x00000000#32),
      StableHlo.unary main_call1_cst main_call1_v0 (broadcastInDim S100000x16 ![] bcast_S_S100000x16 : (⟨S_, .f32⟩ : BufTy).Contents (Elt Ideal) → (⟨S100000x16, .f32⟩ : BufTy).Contents (Elt Ideal)),
      StableHlo.binary main_v46 main_call1_v0 main_v47 (maximumf (F := Ideal) (s := S100000x16) (φ := .f32)) ] := rfl

theorem where2_eq : (hostOps2_1 : List (HloOp τ sig (Elt Ideal))) =
    [ StableHlo.unary main_cst_12 main_call2_v0 ((fun v => v) : (⟨S_, .f32⟩ : BufTy).Contents (Elt Ideal) → (⟨S_, .f32⟩ : BufTy).Contents (Elt Ideal)),
      StableHlo.unary main_call2_v0 main_call2_v1 (broadcastInDim S100000 ![] bcast_S_S100000 : (⟨S_, .f32⟩ : BufTy).Contents (Elt Ideal) → (⟨S100000, .f32⟩ : BufTy).Contents (Elt Ideal)),
      StableHlo.ternary main_v54 main_v55 main_call2_v1 main_v56 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ] := rfl

theorem relu2_eq : (hostOps2_3 : List (HloOp τ sig (Elt Ideal))) =
    [ StableHlo.nullary main_call3_cst (constant (F := Ideal) S_ .f32 0x00000000#32),
      StableHlo.unary main_call3_cst main_call3_v0 (broadcastInDim S100000x16 ![] bcast_S_S100000x16 : (⟨S_, .f32⟩ : BufTy).Contents (Elt Ideal) → (⟨S100000x16, .f32⟩ : BufTy).Contents (Elt Ideal)),
      StableHlo.binary main_v87 main_call3_v0 main_v88 (maximumf (F := Ideal) (s := S100000x16) (φ := .f32)) ] := rfl

/-! ## The first convolution's host chain -/

/-- The four stretches between the regions, read at the rectified output, are `conv` of what the starting contents hold
    at the first product, the sources, the destinations and the first bias. -/
theorem mid_conv :
    StableHlo.after hostOps1_3 (StableHlo.after hostOps1_2 (StableHlo.after hostOps1_1 (StableHlo.after hostOps1 Vb))) (Proc.devRef .tc main_v47)
      = conv (F := Ideal) (Vb (Proc.devRef .tc main_v7)) (Vb (Proc.devRef .tc main_v3)) (Vb (Proc.devRef .tc main_v6))
          (Vb (Proc.devRef .tc main_arg3)) := by
  rw [where1_eq, relu1_eq]
  after_results_simp
  unfold conv agg edgeWeight dinv deg wrap
  with_reducible rfl

/-- When the starting contents hold the reference's stages there, the fold is the reference's rectified first layer. -/
theorem mid_fold
    (x0 : (⟨Cert.ReferenceIdeal.S100000x512, .f32⟩ : BufTy).Contents (Elt Ideal)) (x1 : (⟨Cert.ReferenceIdeal.S2x3200000, .i32⟩ : BufTy).Contents (Elt Ideal))
    (x2 : (⟨Cert.ReferenceIdeal.S512x16, .f32⟩ : BufTy).Contents (Elt Ideal)) (x3 : (⟨Cert.ReferenceIdeal.S16, .f32⟩ : BufTy).Contents (Elt Ideal))
    (h7 : Vb (Proc.devRef .tc main_v7) = Cert.ReferenceIdeal.Read.val_main_v7 (F := Ideal) x0 x2)
    (h3 : Vb (Proc.devRef .tc main_v3) = Cert.ReferenceIdeal.Read.val_main_v3 (F := Ideal) x1)
    (h6 : Vb (Proc.devRef .tc main_v6) = Cert.ReferenceIdeal.Read.val_main_v6 (F := Ideal) x1)
    (ha3 : Vb (Proc.devRef .tc main_arg3) = x3) :
    StableHlo.after hostOps1_3 (StableHlo.after hostOps1_2 (StableHlo.after hostOps1_1 (StableHlo.after hostOps1 Vb))) (Proc.devRef .tc main_v47)
      = Cert.ReferenceIdeal.Read.val_main_v47 (F := Ideal) x0 x1 x2 x3 := by
  rw [mid_conv, h7, h3, h6, ha3]
  exact (Cert.ReferenceIdeal.RefChain.conv_a x0 x1 x2 x3).symm

/-! ## The second convolution's host chain and the read-out -/

set_option maxHeartbeats 4000000 in
/-- The five stretches after the second region, read at the result, are `head` of `conv` of what the starting contents
    hold at the second product, the sources, the destinations, the second bias and the last layer's weights and bias. -/
theorem post_head :
    StableHlo.after hostOps2_4 (StableHlo.after hostOps2_3 (StableHlo.after hostOps2_2 (StableHlo.after hostOps2_1 (StableHlo.after hostOps2 Vb)))) (Proc.devRef .tc main_v95)
      = head (F := Ideal)
          (conv (F := Ideal) (Vb (Proc.devRef .tc main_v48)) (Vb (Proc.devRef .tc main_v3)) (Vb (Proc.devRef .tc main_v6))
            (Vb (Proc.devRef .tc main_arg5)))
          (Vb (Proc.devRef .tc main_arg6)) (Vb (Proc.devRef .tc main_arg7)) := by
  rw [where2_eq, relu2_eq]
  after_results_simp
  unfold head conv agg edgeWeight dinv deg wrap
  with_reducible rfl

/-- When the starting contents hold the reference's stages there, the fold is the reference's result. -/
theorem post_fold
    (x0 : (⟨Cert.ReferenceIdeal.S100000x512, .f32⟩ : BufTy).Contents (Elt Ideal)) (x1 : (⟨Cert.ReferenceIdeal.S2x3200000, .i32⟩ : BufTy).Contents (Elt Ideal))
    (x2 : (⟨Cert.ReferenceIdeal.S512x16, .f32⟩ : BufTy).Contents (Elt Ideal)) (x3 : (⟨Cert.ReferenceIdeal.S16, .f32⟩ : BufTy).Contents (Elt Ideal))
    (x4 : (⟨Cert.ReferenceIdeal.S16x16, .f32⟩ : BufTy).Contents (Elt Ideal)) (x5 : (⟨Cert.ReferenceIdeal.S16, .f32⟩ : BufTy).Contents (Elt Ideal))
    (x6 : (⟨Cert.ReferenceIdeal.S16x1, .f32⟩ : BufTy).Contents (Elt Ideal)) (x7 : (⟨Cert.ReferenceIdeal.S1, .f32⟩ : BufTy).Contents (Elt Ideal))
    (h48 : Vb (Proc.devRef .tc main_v48) = Cert.ReferenceIdeal.Read.val_main_v48 (F := Ideal) x0 x1 x2 x3 x4)
    (h3 : Vb (Proc.devRef .tc main_v3) = Cert.ReferenceIdeal.Read.val_main_v3 (F := Ideal) x1)
    (h6 : Vb (Proc.devRef .tc main_v6) = Cert.ReferenceIdeal.Read.val_main_v6 (F := Ideal) x1)
    (ha5 : Vb (Proc.devRef .tc main_arg5) = x5) (ha6 : Vb (Proc.devRef .tc main_arg6) = x6) (ha7 : Vb (Proc.devRef .tc main_arg7) = x7) :
    StableHlo.after hostOps2_4 (StableHlo.after hostOps2_3 (StableHlo.after hostOps2_2 (StableHlo.after hostOps2_1 (StableHlo.after hostOps2 Vb)))) (Proc.devRef .tc main_v95)
      = Cert.ReferenceIdeal.Read.val_main_v95 (F := Ideal) x0 x1 x2 x3 x4 x5 x6 x7 := by
  rw [post_head, h48, h3, h6, ha5, ha6, ha7, Cert.ReferenceIdeal.RefChain.head_eq, Cert.ReferenceIdeal.RefChain.conv_b]

end Cert.KernelIdeal.HostFold

end
-- ==== Proof.KernelValue.lean ====
/-
  The idealized kernel's result as a function of its arguments.

  The program is: index preparation (source and destination of every edge, self-loops appended); a matrix-product region
  x·W1; the graph convolution's host chain (degree normalisation, gather, scale, scatter-add, bias, max with 0); a second
  matrix-product region h·W2; the same host chain again; the mean over the nodes and the final linear layer.  Its host
  chains are, operation for operation, the reference's, and each region leaves the whole product in its output array
  (RegionValue), which is what the reference's matrix product computes at the ideal values (a sum over the contracted
  index of products of entries).  So the buffer contents the frame module folds through the program are, stage by stage,
  the reference's stage functions of the launch contents of the arguments.
-/
import proofs.«116130_j6605659701468_1_alg».proof.Proof.Gen.KernelIdeal.Frame
import proofs.«116130_j6605659701468_1_alg».proof.Proof.RefReadPatched
import proofs.«116130_j6605659701468_1_alg».proof.Proof.RegionValue
import proofs.«116130_j6605659701468_1_alg».proof.Proof.HostFold
import proofs.«116130_j6605659701468_1_alg».proof.Proof.LibRowOps
import proofs.«116130_j6605659701468_1_alg».proof.Proof.LibMatRows

set_option maxRecDepth 16384

noncomputable section

namespace Cert.KernelIdeal.KernelValue

open Cert.KernelIdeal Cert.KernelIdeal.Gen Cert.MatRowsLib
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- No operation of a stretch of host operations writes the buffer: decided reference by reference. -/
macro "not_written" : tactic => `(tactic| (
  refine List.forall_iff_forall_mem.mp ?_
  simp only [hostOps0, hostOps1, hostOps1_1, hostOps1_2, hostOps1_3, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ## Buffers that a stretch of the program leaves alone -/

/-- A buffer the index preparation does not write holds its launch contents at the first region's entry. -/
theorem W1_launch (b : Ref sig .tc)
    (h0 : ∀ op ∈ (hostOps0 : List (HloOp τ sig (Elt Ideal))), Proc.devRef .tc b ∉ op.writes) :
    W1 m ρ c (Proc.devRef .tc b) = m ((c : Thread nD τ).loc b) :=
  (StableHlo.after_of_forall_not_mem (b := Proc.devRef .tc b) _ _ h0).trans rfl

/-- A buffer that is not one of the first region's three arrays is, at its exit, what it was at its entry; and a buffer
    none of the four stretches of the first convolution's host chain writes is the same at the second region's entry. -/
theorem W6_eq_W1 (b : Ref sig .tc) (hne : ∀ w, Pipeline.arrRef spec0 w ≠ b)
    (h1 : ∀ op ∈ (hostOps1 : List (HloOp τ sig (Elt Ideal))), Proc.devRef .tc b ∉ op.writes)
    (h2 : ∀ op ∈ (hostOps1_1 : List (HloOp τ sig (Elt Ideal))), Proc.devRef .tc b ∉ op.writes)
    (h3 : ∀ op ∈ (hostOps1_2 : List (HloOp τ sig (Elt Ideal))), Proc.devRef .tc b ∉ op.writes)
    (h4 : ∀ op ∈ (hostOps1_3 : List (HloOp τ sig (Elt Ideal))), Proc.devRef .tc b ∉ op.writes) :
    W6 m ρ c (Proc.devRef .tc b) = W1 m ρ c (Proc.devRef .tc b) :=
  calc W6 m ρ c (Proc.devRef .tc b)
    _ = W5 m ρ c (Proc.devRef .tc b) := StableHlo.after_of_forall_not_mem (b := Proc.devRef .tc b) _ _ h4
    _ = W4 m ρ c (Proc.devRef .tc b) := StableHlo.after_of_forall_not_mem (b := Proc.devRef .tc b) _ _ h3
    _ = W3 m ρ c (Proc.devRef .tc b) := StableHlo.after_of_forall_not_mem (b := Proc.devRef .tc b) _ _ h2
    _ = W2 m ρ c (Proc.devRef .tc b) := StableHlo.after_of_forall_not_mem (b := Proc.devRef .tc b) _ _ h1
    _ = W1 m ρ c (Proc.devRef .tc b) := W2_of_ne m ρ c b hne

/-! ## The index preparation -/

theorem W1_v3 : W1 m ρ c (Proc.devRef .tc main_v3) = Cert.ReferenceIdeal.Read.val_main_v3 (F := Ideal) (m ((c : Thread nD τ).loc main_arg1)) :=
  HostFold.pre_v3 (W0 m ρ c)

theorem W1_v6 : W1 m ρ c (Proc.devRef .tc main_v6) = Cert.ReferenceIdeal.Read.val_main_v6 (F := Ideal) (m ((c : Thread nD τ).loc main_arg1)) :=
  HostFold.pre_v6 (W0 m ρ c)

/-! ## The first region: x·W1 -/

/-- The reference's first matrix product is the row-by-row product. -/
theorem ref_v7_eq (x0 : (⟨Cert.ReferenceIdeal.S100000x512, .f32⟩ : BufTy).Contents (Elt Ideal)) (x2 : (⟨Cert.ReferenceIdeal.S512x16, .f32⟩ : BufTy).Contents (Elt Ideal)) :
    Cert.ReferenceIdeal.Read.val_main_v7 (F := Ideal) x0 x2 = rowsTimes (M := 100000) (K := 512) (N := 16) x0 x2 := by
  unfold Cert.ReferenceIdeal.Read.val_main_v7
  rw [Cert.RowLib.dotDims_eq_plain Cert.ReferenceIdeal.dot_S100000x512_S512x16_S100000x16_1_0_0_1_n_n rfl rfl rfl rfl rfl rfl]
  exact hostDot_plain_eq none x0 x2

theorem W2_v7 : W2 m ρ c (Proc.devRef .tc main_v7)
    = Cert.ReferenceIdeal.Read.val_main_v7 (F := Ideal) (m ((c : Thread nD τ).loc main_arg0)) (m ((c : Thread nD τ).loc main_arg2)) := by
  rw [ref_v7_eq]
  refine (W2_arr m ρ c 2).trans ((RegionValue.final0 (V1 m ρ) c).trans ?_)
  rw [show V1 m ρ c main_arg0 = m ((c : Thread nD τ).loc main_arg0) from W1_launch m ρ c main_arg0 (by not_written),
    show V1 m ρ c main_arg2 = m ((c : Thread nD τ).loc main_arg2) from W1_launch m ρ c main_arg2 (by not_written)]

/-! ## The first convolution's host chain -/

theorem W6_v47 : W6 m ρ c (Proc.devRef .tc main_v47) = Cert.ReferenceIdeal.Read.val_main_v47 (F := Ideal) (m ((c : Thread nD τ).loc main_arg0)) (m ((c : Thread nD τ).loc main_arg1)) (m ((c : Thread nD τ).loc main_arg2)) (m ((c : Thread nD τ).loc main_arg3)) :=
  HostFold.mid_fold (W2 m ρ c) _ _ _ _ (W2_v7 m ρ c)
    ((W2_of_ne m ρ c main_v3 (by decide)).trans (W1_v3 m ρ c))
    ((W2_of_ne m ρ c main_v6 (by decide)).trans (W1_v6 m ρ c))
    ((W2_of_ne m ρ c main_arg3 (by decide)).trans (W1_launch m ρ c main_arg3 (by not_written)))

/-! ## The second region: h·W2 -/

theorem W7_v48 : W7 m ρ c (Proc.devRef .tc main_v48) = Cert.ReferenceIdeal.Read.val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  unfold Cert.ReferenceIdeal.Read.val_main_v48
  rw [Cert.RowLib.dotDims_eq_plain Cert.ReferenceIdeal.dot_S100000x16_S16x16_S100000x16_1_0_0_1_n_n rfl rfl rfl rfl rfl rfl, hostDot_plain_eq]
  refine (W7_arr m ρ c 2).trans ((RegionValue.final1 (V6 m ρ) c).trans ?_)
  rw [show V6 m ρ c main_v47 = _ from W6_v47 m ρ c,
    show V6 m ρ c main_arg4 = m ((c : Thread nD τ).loc main_arg4) from
      (W6_eq_W1 m ρ c main_arg4 (by decide) (by not_written) (by not_written) (by not_written) (by not_written)).trans
        (W1_launch m ρ c main_arg4 (by not_written))]

/-! ## The second convolution's host chain, the mean and the last layer -/

/-- A buffer none of the two regions and none of the host chain between them writes holds, after the second region,
    what it held at the first region's entry. -/
theorem W7_eq_W1 (b : Ref sig .tc) (hne1 : ∀ w, Pipeline.arrRef spec1 w ≠ b) (hne : ∀ w, Pipeline.arrRef spec0 w ≠ b)
    (h1 : ∀ op ∈ (hostOps1 : List (HloOp τ sig (Elt Ideal))), Proc.devRef .tc b ∉ op.writes)
    (h2 : ∀ op ∈ (hostOps1_1 : List (HloOp τ sig (Elt Ideal))), Proc.devRef .tc b ∉ op.writes)
    (h3 : ∀ op ∈ (hostOps1_2 : List (HloOp τ sig (Elt Ideal))), Proc.devRef .tc b ∉ op.writes)
    (h4 : ∀ op ∈ (hostOps1_3 : List (HloOp τ sig (Elt Ideal))), Proc.devRef .tc b ∉ op.writes) :
    W7 m ρ c (Proc.devRef .tc b) = W1 m ρ c (Proc.devRef .tc b) :=
  (W7_of_ne m ρ c b hne1).trans (W6_eq_W1 m ρ c b hne h1 h2 h3 h4)

/-- THE RESULT: the last fold's contents of the result buffer are the reference's last stage of the launch contents of
    the eight arguments. -/
theorem W12_v95 : W12 m ρ c (Proc.devRef .tc main_v95) = Cert.ReferenceIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  HostFold.post_fold (W7 m ρ c) _ _ _ _ _ _ _ _ (W7_v48 m ρ c)
    ((W7_eq_W1 m ρ c main_v3 (by decide) (by decide) (by not_written) (by not_written) (by not_written) (by not_written)).trans (W1_v3 m ρ c))
    ((W7_eq_W1 m ρ c main_v6 (by decide) (by decide) (by not_written) (by not_written) (by not_written) (by not_written)).trans (W1_v6 m ρ c))
    ((W7_eq_W1 m ρ c main_arg5 (by decide) (by decide) (by not_written) (by not_written) (by not_written) (by not_written)).trans (W1_launch m ρ c main_arg5 (by not_written)))
    ((W7_eq_W1 m ρ c main_arg6 (by decide) (by decide) (by not_written) (by not_written) (by not_written) (by not_written)).trans (W1_launch m ρ c main_arg6 (by not_written)))
    ((W7_eq_W1 m ρ c main_arg7 (by decide) (by decide) (by not_written) (by not_written) (by not_written) (by not_written)).trans (W1_launch m ρ c main_arg7 (by not_written)))

end Cert.KernelIdeal.KernelValue

end
-- ==== Proof.lean ====
/-
  A two-layer graph convolution network with a mean read-out: the kernel computes each layer's matrix product x·W in a
  region that walks the rows in 25 blocks of 4000, the reference as one whole matrix product; everything else — the
  edge lists with self-loops, the degree normalisation, the gather, scale and scatter-add of the messages, the bias, the
  rectifier, the mean over the nodes and the last linear layer — is the same sequence of host operations in both.

  At the ideal values a matrix product's entry (r, j) is the sum over k of X(r,k)·W(k,j), a function of row r alone, so a
  block of rows of the product is the product of the block of rows, the zero accumulator adds nothing and the change of
  float format before the product is the identity: each region leaves the reference's whole product in its output array
  (RegionValue).  The host stretches around the regions are, read at their last buffers, the convolution chain of the
  region's output (HostFold), as the reference's stages are (RefChain).  So the kernel's result buffer ends at the
  reference's last stage of the launch contents of the arguments (KernelValue, over the run KernelRun), which is what the
  reference's own run ends at.  No law of the extended reals beyond reading a product as a sum is used: the inputs'
  finiteness is never opened.
-/
import proofs.«116130_j6605659701468_1_alg».proof.Defs
import proofs.«116130_j6605659701468_1_alg».proof.Proof.Gen.Kernel
import proofs.«116130_j6605659701468_1_alg».proof.Proof.Gen.Kernel.Frame
import proofs.«116130_j6605659701468_1_alg».proof.Proof.Gen.KernelIdeal
import proofs.«116130_j6605659701468_1_alg».proof.Proof.Gen.KernelIdeal.Frame
import proofs.«116130_j6605659701468_1_alg».proof.Proof.Gen.ReferenceIdeal
import proofs.«116130_j6605659701468_1_alg».proof.Proof.Gen.Pre_finite_inputs
import proofs.«116130_j6605659701468_1_alg».proof.Proof.RefRunPatched
import proofs.«116130_j6605659701468_1_alg».proof.Proof.RefReadPatched
import proofs.«116130_j6605659701468_1_alg».proof.Proof.KernelRun
import proofs.«116130_j6605659701468_1_alg».proof.Proof.KernelValue
import Idealize.ShloMosaic.Adequacy
import Idealize.ShloMosaic.Init

noncomputable section

namespace Cert.Proof

open Idealize.ShloMosaic Idealize.SL.Sem

/-- The word-level kernel runs and leaves its arguments as launched: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with their result at the reference's last stage of the arguments' launch contents. -/
theorem algebraic : Cert.algebraic_KernelIdeal_ReferenceIdeal := by
  intro m ρ m' ρ' _ hagree
  refine ⟨fun c => Cert.ReferenceIdeal.Read.val_main_v95 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KernelValue.W12_v95 m ρ c), (h c).2⟩)
      (Cert.KernelIdeal.RunValue.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v95_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
